-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 93
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x1, .f32⟩
  | .hbm, ⟨92, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000, .f32⟩
  | 112 => ⟨S1700000, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x1, .f32⟩
  | 124 => ⟨S1700000x128, .f32⟩
  | 125 => ⟨S1700000x128, .f32⟩
  | 126 => ⟨S_, .f32⟩
  | 127 => ⟨S100000x128, .f32⟩
  | _ => ⟨S100000x128, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .f32⟩
  | 8 => ⟨S100000x1, .f32⟩
  | 9 => ⟨S1x1, .f32⟩
  | 10 => ⟨S100000x1, .f32⟩
  | 11 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v62 : Ref sig .tc := ⟨.hbm, 93, rfl⟩
abbrev main_c_15 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run with its result NAMED: every weakly fair execution of @main terminates, nothing faults,
  and on every device the result buffer ends at the last boundary's contents `W8` of that buffer — the three regions'
  write-backs folded through the host stretches between them — beside the arguments as launched.
  The launch theorem for a program of several regions gives, at the end, every unscoped buffer at `W8`; the frame claim
  keeps of that only the arguments, this statement keeps the result buffer as well.
-/
import proofs.«115015_j18940805775462_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents. -/
theorem run_result : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.Chain.lean ====
/-
  The two-layer graph convolution as ONE function of the argument arrays.

  Both programs compute, for node features `x`, edge list `ei` (a row of sources, a row of destinations), weights
  `W1, W2, Wh` and biases `b1, b2, bh`:

    out = relu (A (relu (A (x · W1) + b1) · W2) + b2) · Wh + bh

  where `A` is the normalised adjacency with a self-loop at every node: for every edge `e` (the given edges followed
  by the loops `n → n`), row `src e` of the operand, scaled by `dis (src e) · dis (dst e)`, is added into row `dst e`;
  `dis n = deg n ^ (-1/2)` where the in-degree `deg n` (loops included) is positive and `0` elsewhere.

  The gathers, the scatter-adds, the degree normalisation and the bias rows are the SAME host operations in both
  programs; they are named here once (`srcOf`, `dstOf`, `edgeNorm`, `aggregate`) and never opened. What differs
  between the programs is only how the three dense products are carried out (row tiles of 5000 nodes against one
  product over all nodes), where the `relu` sits (before the product, inside the tile, against a separate host
  operation) and how the last bias reaches its column; `dense`, `relu` and `headOut` state those three pieces in the
  whole-array form.
-/
import proofs.«115015_j18940805775462_1_alg».proof.Defs
import proofs.«115015_j18940805775462_1_alg».proof.Proof.Gen.KernelIdeal
import proofs.«115015_j18940805775462_1_alg».proof.Proof.Gen.ReferenceIdeal

noncomputable section

namespace Cert.GraphConv

open Idealize.ShloMosaic Cert.KernelIdeal Cert.KernelIdeal.Gen

variable {F : FTy → Type} [FloatOps F]

/-- Row 0 of the edge list as a vector: the given edges' sources. -/
def edgeSources (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list as a vector: the given edges' destinations. -/
def edgeTargets (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A vector of edge endpoints followed by every node once: the self-loops appended. -/
def withLoops (e : (⟨S1600000, .i32⟩ : BufTy).Contents (Elt F)) : (⟨S1700000, .i32⟩ : BufTy).Contents (Elt F) :=
  concatenate S1700000 0 [⟨S1600000, e⟩, ⟨S100000, iotaInDim S100000 32 0⟩] concatenates_S1600000_S100000_S1700000_d0

/-- The sources of all edges: row 0 of the edge list, then every node once (the self-loops). -/
def srcOf (ei : (⟨S2x1600000, .i32⟩ : BufTy).Contents (Elt F)) : (⟨S1700000, .i32⟩ : BufTy).Contents (Elt F) :=
  withLoops (edgeSources ei)

/-- The destinations of all edges: row 1 of the edge list, then every node once. -/
def dstOf (ei : (⟨S2x1600000, .i32⟩ : BufTy).Contents (Elt F)) : (⟨S1700000, .i32⟩ : BufTy).Contents (Elt F) :=
  withLoops (edgeTargets ei)

/-- A vector of node numbers as the index column a gather takes: a negative number counts from the end
    (`n + 100000`), as array indexing does. -/
def indexColumn (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node: one added per edge at its destination. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- `deg ^ (-1/2)` where the degree is positive, `0` elsewhere. -/
def invSqrtDegree (dst : (⟨S1700000, .i32⟩ : BufTy).Contents (Elt F)) : (⟨S100000, .f32⟩ : BufTy).Contents (Elt F) :=
  select (cmpf .ogt (degree dst) (broadcastInDim S100000 ![] bcast_S_S100000 (constant S_ .f32 0x00000000#32)))
    (Host.rsqrt (maximumf (degree dst) (broadcastInDim S100000 ![] bcast_S_S100000 (constant S_ .f32 0x3F800000#32))))
    (broadcastInDim S100000 ![] bcast_S_S100000 (constant S_ .f32 0x00000000#32))

/-- The weight of every edge: `dis (src e) · dis (dst e)`. -/
def edgeNorm (src dst : (⟨S1700000, .i32⟩ : BufTy).Contents (Elt F)) : (⟨S1700000, .f32⟩ : BufTy).Contents (Elt F) :=
  mulf (Host.gather gather_S100000_S1700000x1_S1700000_n_0_n_n_0_1_1 (invSqrtDegree dst) (indexColumn src))
    (Host.gather gather_S100000_S1700000x1_S1700000_n_0_n_n_0_1_1 (invSqrtDegree dst) (indexColumn dst))

/-- One aggregation: every edge adds row `src e` of `h`, scaled by the edge's weight, into row `dst e`; then
    the bias row is added to every node. -/
def aggregate (h : (⟨S100000x128, .f32⟩ : BufTy).Contents (Elt F)) (src dst : (⟨S1700000, .i32⟩ : BufTy).Contents (Elt F))
    (nrm : (⟨S1700000, .f32⟩ : BufTy).Contents (Elt F)) (b : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf (Host.gather gather_S100000x128_S1700000x1_S1700000x128_1_0_n_n_0_1_1128 h (indexColumn src))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- `max (h, 0)`, entry by entry. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The product of all node rows with a 128 × 128 weight matrix. -/
def dense (x : (⟨S100000x128, .f32⟩ : BufTy).Contents (Elt F)) (w : (⟨S128x128, .f32⟩ : BufTy).Contents (Elt F)) :
    (⟨S100000x128, .f32⟩ : BufTy).Contents (Elt F) :=
  Host.dotGeneral Cert.ReferenceIdeal.dot_S100000x128_S128x128_S100000x128_1_0_0_1_n_n none x w

/-- The output column from a bias held as a 1 × 1 array: `relu h · Wh` plus that entry on every row. -/
def headOutOf (h : (⟨S100000x128, .f32⟩ : BufTy).Contents (Elt F)) (wh : (⟨S128x1, .f32⟩ : BufTy).Contents (Elt F))
    (b11 : (⟨S1x1, .f32⟩ : BufTy).Contents (Elt F)) : (⟨S100000x1, .f32⟩ : BufTy).Contents (Elt F) :=
  addf (Host.dotGeneral Cert.ReferenceIdeal.dot_S100000x128_S128x1_S100000x1_1_0_0_1_n_n none (relu h) wh)
    (broadcastInDim S100000x1 ![0, 1] Cert.ReferenceIdeal.Gen.bcast_S1x1_S100000x1_0_1 b11)

/-- The output column: `relu h · Wh + bh`. -/
def headOut (h : (⟨S100000x128, .f32⟩ : BufTy).Contents (Elt F)) (wh : (⟨S128x1, .f32⟩ : BufTy).Contents (Elt F))
    (bh : (⟨S1, .f32⟩ : BufTy).Contents (Elt F)) : (⟨S100000x1, .f32⟩ : BufTy).Contents (Elt F) :=
  headOutOf h wh (broadcastInDim S1x1 ![1] Cert.ReferenceIdeal.Gen.bcast_S1_S1x1_1 bh)

/-- The whole network. -/
def network (x : (⟨S100000x128, .f32⟩ : BufTy).Contents (Elt F)) (ei : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (wh : (⟨S128x1, .f32⟩ : BufTy).Contents (Elt F)) (bh : (⟨S1, .f32⟩ : BufTy).Contents (Elt F)) :
    (⟨S100000x1, .f32⟩ : BufTy).Contents (Elt F) :=
  headOut
    (aggregate
      (dense (relu (aggregate (dense x w1) (srcOf ei) (dstOf ei) (edgeNorm (srcOf ei) (dstOf ei)) b1)) w2)
      (srcOf ei) (dstOf ei) (edgeNorm (srcOf ei) (dstOf ei)) b2)
    wh bh

end Cert.GraphConv

end
-- ==== Proof.SpecRead.lean ====
/-
  The dense pieces of the specification read at an index, at the ideal instance: an entry of a product over all
  nodes is the sum over the 128 shared positions of row entry times column entry; `relu` is `max (·, 0)`; the output
  column's entry is the clamped row times the weight column, plus the one bias entry.
-/
import proofs.«115015_j18940805775462_1_alg».proof.Proof.Chain
import Idealize.ShloMosaic.Lib.ValueIdx
import Idealize.ShloMosaic.Lib.Pipeline.Value
import Idealize.ShloMosaic.PureOps.Ideal.Laws

noncomputable section

namespace Cert.GraphConv

open Idealize.ShloMosaic Cert.KernelIdeal

/-- The zero both programs clamp against, as an extended real. -/
abbrev zeroE : EReal := Ideal.ofBits .f32 0x00000000#32

/-- The product over all nodes: its dimension record (100000 × 128 times 128 × 128). -/
abbrev DA := Cert.ReferenceIdeal.dot_S100000x128_S128x128_S100000x128_1_0_0_1_n_n
/-- The head's (100000 × 128 times 128 × 1). -/
abbrev DB := Cert.ReferenceIdeal.dot_S100000x128_S128x1_S100000x1_1_0_0_1_n_n

/-! ## The operand positions of a product's entry -/

/-- Position k of the node row that entry `i` of the 128-column product reads. -/
abbrev nodeRow (i : S100000x128.Idx) (k : Fin 128) : S100000x128.Idx := fun a => match a with
  | ⟨0, _⟩ => ⟨(i 0).val, (i 0).isLt⟩
  | ⟨1, _⟩ => ⟨k.val, k.isLt⟩
/-- Position k of the weight column that entry `i` reads. -/
abbrev weightCol (i : S100000x128.Idx) (k : Fin 128) : S128x128.Idx := fun a => match a with
  | ⟨0, _⟩ => ⟨k.val, k.isLt⟩
  | ⟨1, _⟩ => ⟨(i 1).val, (i 1).isLt⟩
/-- The same for the output column. -/
abbrev headRow (i : S100000x1.Idx) (k : Fin 128) : S100000x128.Idx := fun a => match a with
  | ⟨0, _⟩ => ⟨(i 0).val, (i 0).isLt⟩
  | ⟨1, _⟩ => ⟨k.val, k.isLt⟩
abbrev headCol (i : S100000x1.Idx) (k : Fin 128) : S128x1.Idx := fun a => match a with
  | ⟨0, _⟩ => ⟨k.val, k.isLt⟩
  | ⟨1, _⟩ => ⟨(i 1).val, (i 1).isLt⟩
/-- The one index of the 1 × 1 bias, whatever the output entry. -/
abbrev biasAt (i : S100000x1.Idx) : S1x1.Idx := fun a => match a with
  | ⟨0, _⟩ => ⟨0, Nat.one_pos⟩
  | ⟨1, _⟩ => ⟨0, Nat.one_pos⟩

theorem da_lhs0 (i : S100000x128.Idx) (q : DA.contr.Idx) : (DA.lhsIdx i q 0).val = (i 0).val := by
  unfold DotDims.lhsIdx
  rw [dif_neg (show ¬(0 : Fin S100000x128.rank) ∈ DA.lhsBatch by decide), dif_pos (show (0 : Fin S100000x128.rank) ∈ DA.lhsNonContracting by decide)]
  rfl
theorem da_lhs1 (i : S100000x128.Idx) (q : DA.contr.Idx) : (DA.lhsIdx i q 1).val = (q ⟨0, by decide⟩).val :=
  DA.lhsIdx_val_of_single rfl i q
theorem da_rhs0 (i : S100000x128.Idx) (q : DA.contr.Idx) : (DA.rhsIdx i q 0).val = (q ⟨0, by decide⟩).val :=
  DA.rhsIdx_val_of_single rfl i q
theorem da_rhs1 (i : S100000x128.Idx) (q : DA.contr.Idx) : (DA.rhsIdx i q 1).val = (i 1).val := by
  unfold DotDims.rhsIdx
  rw [dif_neg (show ¬(1 : Fin S128x128.rank) ∈ DA.rhsBatch by decide), dif_pos (show (1 : Fin S128x128.rank) ∈ DA.rhsNonContracting by decide)]
  rfl

theorem db_lhs0 (i : S100000x1.Idx) (q : DB.contr.Idx) : (DB.lhsIdx i q 0).val = (i 0).val := by
  unfold DotDims.lhsIdx
  rw [dif_neg (show ¬(0 : Fin S100000x128.rank) ∈ DB.lhsBatch by decide), dif_pos (show (0 : Fin S100000x128.rank) ∈ DB.lhsNonContracting by decide)]
  rfl
theorem db_lhs1 (i : S100000x1.Idx) (q : DB.contr.Idx) : (DB.lhsIdx i q 1).val = (q ⟨0, by decide⟩).val :=
  DB.lhsIdx_val_of_single rfl i q
theorem db_rhs0 (i : S100000x1.Idx) (q : DB.contr.Idx) : (DB.rhsIdx i q 0).val = (q ⟨0, by decide⟩).val :=
  DB.rhsIdx_val_of_single rfl i q
theorem db_rhs1 (i : S100000x1.Idx) (q : DB.contr.Idx) : (DB.rhsIdx i q 1).val = (i 1).val := by
  unfold DotDims.rhsIdx
  rw [dif_neg (show ¬(1 : Fin S128x1.rank) ∈ DB.rhsBatch by decide), dif_pos (show (1 : Fin S128x1.rank) ∈ DB.rhsNonContracting by decide)]
  rfl

/-- An entry of the 128-column product. -/
theorem dense_apply (x : (⟨S100000x128, .f32⟩ : BufTy).Contents (Elt Ideal)) (w : (⟨S128x128, .f32⟩ : BufTy).Contents (Elt Ideal))
    (i : S100000x128.Idx) :
    dense (F := Ideal) x w i = ∑ k : Fin 128, x (nodeRow i k) * w (weightCol i k) := by
  unfold dense
  simp only [Host.dotGeneral]
  rw [Ideal.dotGeneral_apply, ← Equiv.sum_comp (ValueIdx.contrEquiv1 DA 128 rfl rfl).symm]
  refine Finset.sum_congr rfl fun k _ => ?_
  have hk := ValueIdx.contrEquiv1_symm_val DA 128 rfl rfl k
  have el : DA.lhsIdx i ((ValueIdx.contrEquiv1 DA 128 rfl rfl).symm k) = nodeRow i k := funext fun a => Fin.ext (by
    match a with
    | ⟨0, _⟩ => exact da_lhs0 _ _
    | ⟨1, _⟩ => exact (da_lhs1 _ _).trans hk)
  have er : DA.rhsIdx i ((ValueIdx.contrEquiv1 DA 128 rfl rfl).symm k) = weightCol i k := funext fun a => Fin.ext (by
    match a with
    | ⟨0, _⟩ => exact (da_rhs0 _ _).trans hk
    | ⟨1, _⟩ => exact da_rhs1 _ _)
  rw [el, er]

/-- An entry of the one-column product. -/
theorem headDot_apply (h : FVec Ideal S100000x128 .f32) (wh : FVec Ideal S128x1 .f32) (i : S100000x1.Idx) :
    Host.dotGeneral (F := Ideal) DB none h wh i = ∑ k : Fin 128, h (headRow i k) * wh (headCol i k) := by
  simp only [Host.dotGeneral]
  rw [Ideal.dotGeneral_apply, ← Equiv.sum_comp (ValueIdx.contrEquiv1 DB 128 rfl rfl).symm]
  refine Finset.sum_congr rfl fun k _ => ?_
  have hk := ValueIdx.contrEquiv1_symm_val DB 128 rfl rfl k
  have el : DB.lhsIdx i ((ValueIdx.contrEquiv1 DB 128 rfl rfl).symm k) = headRow i k := funext fun a => Fin.ext (by
    match a with
    | ⟨0, _⟩ => exact db_lhs0 _ _
    | ⟨1, _⟩ => exact (db_lhs1 _ _).trans hk)
  have er : DB.rhsIdx i ((ValueIdx.contrEquiv1 DB 128 rfl rfl).symm k) = headCol i k := funext fun a => Fin.ext (by
    match a with
    | ⟨0, _⟩ => exact (db_rhs0 _ _).trans hk
    | ⟨1, _⟩ => exact db_rhs1 _ _)
  rw [el, er]

/-- `relu` at an index. -/
theorem relu_apply (h : (⟨S100000x128, .f32⟩ : BufTy).Contents (Elt Ideal)) (i : S100000x128.Idx) :
    relu (F := Ideal) h i = max (h i) zeroE := by
  unfold relu
  show max (h i) (broadcastInDim S100000x128 ![] Cert.KernelIdeal.Gen.bcast_S_S100000x128 (constant (F := Ideal) S_ .f32 0x00000000#32) i) = _
  rw [broadcastInDim_apply _ Cert.KernelIdeal.Gen.bcast_S_S100000x128 (constant (F := Ideal) S_ .f32 0x00000000#32) i (fun a => a.elim0) (fun a => a.elim0)]
  rfl

/-- An entry of the output column: the clamped row times the weight column, plus the one bias entry. -/
theorem headOutOf_apply (h : (⟨S100000x128, .f32⟩ : BufTy).Contents (Elt Ideal)) (wh : (⟨S128x1, .f32⟩ : BufTy).Contents (Elt Ideal))
    (b11 : (⟨S1x1, .f32⟩ : BufTy).Contents (Elt Ideal)) (i : S100000x1.Idx) :
    headOutOf (F := Ideal) h wh b11 i
      = (∑ k : Fin 128, max (h (headRow i k)) zeroE * wh (headCol i k)) + b11 (biasAt i) := by
  unfold headOutOf
  refine (ValueIdx.addf_apply _ _ i).trans ?_
  refine congrArg₂ (· + ·) ((headDot_apply (relu h) wh i).trans (Finset.sum_congr rfl fun k _ => by rw [relu_apply])) ?_
  exact broadcastInDim_apply _ Cert.ReferenceIdeal.Gen.bcast_S1x1_S100000x1_0_1 b11 i (biasAt i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

end Cert.GraphConv

end
-- ==== Proof.Payload.lean ====
/-
  What each of the three kernel bodies stores, read at an index of the stored tile, at the ideal instance.

  A tile holds 5000 node rows. Entry (r, q) of the first body's store is the product of row r of the loaded node tile
  with column q of the weight matrix, a sum over the 128 shared positions k; rounding the operands to bf16 on the way
  into the product is the identity on extended reals. The second body takes `max (·, 0)` of the node tile first. The third
  does the same against a weight matrix of ONE column and then adds the one bias entry to every row.
-/
import proofs.«115015_j18940805775462_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic

/-- The tile product's dimension record: 5000 × 128 times 128 × 128. -/
abbrev DW := dot_S5000x128_S128x128_S5000x128_1_0_0_1_n_n
/-- The head's: 5000 × 128 times 128 × 1. -/
abbrev DH := dot_S5000x128_S128x1_S5000x1_1_0_0_1_n_n

/-! ## The operand positions of a product's entry -/

/-- Position k of the row of the node tile that entry `j` of a 5000 × 128 result reads. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Position k of the column of the weight matrix that entry `j` reads. -/
abbrev colAt (j : S5000x128.Idx) (k : Fin 128) : S128x128.Idx := fun a => match a with
  | ⟨0, _⟩ => ⟨k.val, k.isLt⟩
  | ⟨1, _⟩ => ⟨(j 1).val, (j 1).isLt⟩
/-- The same for the head, whose result is a column of 5000 entries. -/
abbrev hrowAt (j : S5000x1.Idx) (k : Fin 128) : S5000x128.Idx := fun a => match a with
  | ⟨0, _⟩ => ⟨(j 0).val, (j 0).isLt⟩
  | ⟨1, _⟩ => ⟨k.val, k.isLt⟩
abbrev hcolAt (j : S5000x1.Idx) (k : Fin 128) : S128x1.Idx := fun a => match a with
  | ⟨0, _⟩ => ⟨k.val, k.isLt⟩
  | ⟨1, _⟩ => ⟨(j 1).val, (j 1).isLt⟩

theorem dw_lhs0 (i : S5000x128.Idx) (q : DW.contr.Idx) : (DW.lhsIdx i q 0).val = (i 0).val := by
  unfold DotDims.lhsIdx
  rw [dif_neg (show ¬(0 : Fin S5000x128.rank) ∈ DW.lhsBatch by decide), dif_pos (show (0 : Fin S5000x128.rank) ∈ DW.lhsNonContracting by decide)]
  rfl
theorem dw_lhs1 (i : S5000x128.Idx) (q : DW.contr.Idx) : (DW.lhsIdx i q 1).val = (q ⟨0, by decide⟩).val :=
  DW.lhsIdx_val_of_single rfl i q
theorem dw_rhs0 (i : S5000x128.Idx) (q : DW.contr.Idx) : (DW.rhsIdx i q 0).val = (q ⟨0, by decide⟩).val :=
  DW.rhsIdx_val_of_single rfl i q
theorem dw_rhs1 (i : S5000x128.Idx) (q : DW.contr.Idx) : (DW.rhsIdx i q 1).val = (i 1).val := by
  unfold DotDims.rhsIdx
  rw [dif_neg (show ¬(1 : Fin S128x128.rank) ∈ DW.rhsBatch by decide), dif_pos (show (1 : Fin S128x128.rank) ∈ DW.rhsNonContracting by decide)]
  rfl

theorem dh_lhs0 (i : S5000x1.Idx) (q : DH.contr.Idx) : (DH.lhsIdx i q 0).val = (i 0).val := by
  unfold DotDims.lhsIdx
  rw [dif_neg (show ¬(0 : Fin S5000x128.rank) ∈ DH.lhsBatch by decide), dif_pos (show (0 : Fin S5000x128.rank) ∈ DH.lhsNonContracting by decide)]
  rfl
theorem dh_lhs1 (i : S5000x1.Idx) (q : DH.contr.Idx) : (DH.lhsIdx i q 1).val = (q ⟨0, by decide⟩).val :=
  DH.lhsIdx_val_of_single rfl i q
theorem dh_rhs0 (i : S5000x1.Idx) (q : DH.contr.Idx) : (DH.rhsIdx i q 0).val = (q ⟨0, by decide⟩).val :=
  DH.rhsIdx_val_of_single rfl i q
theorem dh_rhs1 (i : S5000x1.Idx) (q : DH.contr.Idx) : (DH.rhsIdx i q 1).val = (i 1).val := by
  unfold DotDims.rhsIdx
  rw [dif_neg (show ¬(1 : Fin S128x1.rank) ∈ DH.rhsBatch by decide), dif_pos (show (1 : Fin S128x1.rank) ∈ DH.rhsNonContracting by decide)]
  rfl

/-! ## A product into the zero accumulator is the plain sum over the shared positions -/

theorem matmulW_apply {φ₁ φ₂ : FTy} (l : FVec Ideal S5000x128 φ₁) (r : FVec Ideal S128x128 φ₂) (i : S5000x128.Idx) :
    FloatOps.matmul DW none l r (constant S5000x128 .f32 0x00000000#32) i = ∑ k : Fin 128, l (rowAt i k) * r (colAt i k) := by
  rw [Ideal.matmul_constant_zero_apply, ← Equiv.sum_comp (ValueIdx.contrEquiv1 DW 128 rfl rfl).symm]
  refine Finset.sum_congr rfl fun k _ => ?_
  have hk := ValueIdx.contrEquiv1_symm_val DW 128 rfl rfl k
  have el : DW.lhsIdx i ((ValueIdx.contrEquiv1 DW 128 rfl rfl).symm k) = rowAt i k := funext fun a => Fin.ext (by
    match a with
    | ⟨0, _⟩ => exact dw_lhs0 _ _
    | ⟨1, _⟩ => exact (dw_lhs1 _ _).trans hk)
  have er : DW.rhsIdx i ((ValueIdx.contrEquiv1 DW 128 rfl rfl).symm k) = colAt i k := funext fun a => Fin.ext (by
    match a with
    | ⟨0, _⟩ => exact (dw_rhs0 _ _).trans hk
    | ⟨1, _⟩ => exact dw_rhs1 _ _)
  rw [el, er]

theorem matmulH_apply {φ₁ φ₂ : FTy} (l : FVec Ideal S5000x128 φ₁) (r : FVec Ideal S128x1 φ₂) (i : S5000x1.Idx) :
    FloatOps.matmul DH none l r (constant S5000x1 .f32 0x00000000#32) i = ∑ k : Fin 128, l (hrowAt i k) * r (hcolAt i k) := by
  rw [Ideal.matmul_constant_zero_apply, ← Equiv.sum_comp (ValueIdx.contrEquiv1 DH 128 rfl rfl).symm]
  refine Finset.sum_congr rfl fun k _ => ?_
  have hk := ValueIdx.contrEquiv1_symm_val DH 128 rfl rfl k
  have el : DH.lhsIdx i ((ValueIdx.contrEquiv1 DH 128 rfl rfl).symm k) = hrowAt i k := funext fun a => Fin.ext (by
    match a with
    | ⟨0, _⟩ => exact dh_lhs0 _ _
    | ⟨1, _⟩ => exact (dh_lhs1 _ _).trans hk)
  have er : DH.rhsIdx i ((ValueIdx.contrEquiv1 DH 128 rfl rfl).symm k) = hcolAt i k := funext fun a => Fin.ext (by
    match a with
    | ⟨0, _⟩ => exact (dh_rhs0 _ _).trans hk
    | ⟨1, _⟩ => exact dh_rhs1 _ _)
  rw [el, er]

/-! ## The three stored values -/

/-- The zero the bodies splat, as an extended real. -/
abbrev zeroF : EReal := Ideal.ofBits .f32 0x00000000#32

/-- First body: row times column. -/
theorem pay0_apply (x : Vec Ideal S5000x128 .f32) (w : Vec Ideal S128x128 .f32) (j : S5000x128.Idx) :
    k0_pay1 (F := Ideal) x w j = ∑ k : Fin 128, x (rowAt j k) * w (colAt j k) := by
  unfold k0_pay1
  exact matmulW_apply _ _ j

/-- Second body: the row is clamped at zero first. -/
theorem pay1_apply (x : Vec Ideal S5000x128 .f32) (w : Vec Ideal S128x128 .f32) (j : S5000x128.Idx) :
    k1_pay1 (F := Ideal) x w j = ∑ k : Fin 128, max (x (rowAt j k)) zeroF * w (colAt j k) := by
  unfold k1_pay1
  rw [shapeCast_self]
  exact matmulW_apply _ _ j

/-- The one index of a 1 × 1 array. -/
abbrev origin11 : S1x1.Idx := fun a => match a with
  | ⟨0, _⟩ => ⟨0, Nat.one_pos⟩
  | ⟨1, _⟩ => ⟨0, Nat.one_pos⟩

/-- Third body: the clamped row times the one weight column, plus the one bias entry. -/
theorem pay2_apply (x : Vec Ideal S5000x128 .f32) (w : Vec Ideal S128x1 .f32) (b : Vec Ideal S1x1 .f32) (j : S5000x1.Idx) :
    k2_pay1 (F := Ideal) x w b j = (∑ k : Fin 128, max (x (hrowAt j k)) zeroF * w (hcolAt j k)) + b origin11 := by
  unfold k2_pay1
  rw [shapeCast_self, shapeCast_self]
  refine (ValueIdx.addf_apply _ _ j).trans ?_
  refine congrArg₂ (· + ·) (matmulH_apply _ _ j) ?_
  refine broadcastTo_apply b broadcasts_S1x1_S5000x1 j origin11 (fun a => ?_)
  match a with
  | ⟨0, _⟩ => show 0 = if (1 : Nat) = 1 then 0 else _; rw [if_pos rfl]
  | ⟨1, _⟩ => show 0 = if (1 : Nat) = 1 then 0 else _; rw [if_pos rfl]

end Cert.KernelIdeal.Payload

end
-- ==== Proof.Region0.lean ====
/-
  The first region: the array it leaves is the product of ALL node rows with the first weight matrix.

  Grid point t loads node rows 5000·t … 5000·t + 4999 and the whole weight matrix, and writes back the product of the
  two as rows 5000·t … 5000·t + 4999 of the result. Entry (r, q) of that tile is the sum over k of node entry
  (5000·t + r, k) times weight entry (k, q) — the same sum that entry (5000·t + r, q) of the product over all rows is.
  The twenty tiles are disjoint and fill the array, so the array ends at the whole product.
-/
import proofs.«115015_j18940805775462_1_alg».proof.Proof.SpecRead
import proofs.«115015_j18940805775462_1_alg».proof.Proof.Payload
import proofs.«115015_j18940805775462_1_alg».proof.Proof.Gen.KernelIdeal.Frame

set_option maxRecDepth 16384

noncomputable section

namespace Cert.KernelIdeal.Region0

open Cert.KernelIdeal Cert.KernelIdeal.Gen Cert.KernelIdeal.Payload Cert.GraphConv
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the node tile and the result tile at block row t, the weight matrix whole. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A tile entry is the whole product's entry, when the tile's operands are the arrays' entries at the matching places. -/
theorem tile_entry (X : (⟨S100000x128, .f32⟩ : BufTy).Contents (Elt Ideal)) (Wt : (⟨S128x128, .f32⟩ : BufTy).Contents (Elt Ideal))
    (x0 : Vec Ideal S5000x128 .f32) (x1 : Vec Ideal S128x128 .f32) (j : S5000x128.Idx) (i : S100000x128.Idx)
    (h0 : ∀ k : Fin 128, x0 (rowAt j k) = X (nodeRow i k))
    (h1 : ∀ k : Fin 128, x1 (colAt j k) = Wt (weightCol i k)) :
    k0_pay1 (F := Ideal) x0 x1 j = dense X Wt i := by
  rw [pay0_apply, dense_apply]
  exact Finset.sum_congr rfl fun k _ => by rw [h0 k, h1 k]

/-- What point t writes back is tile t of the product of the arrays as the region finds them. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_positions t
  funext j
  show k0_pay1 (F := Ideal) (iblk0 V c 0 t) (iblk0 V c 1 t) j
    = dense (V c main_arg0) (V c main_arg2) (((cfg0.win 2).blk t).view.emb j)
  refine tile_entry (V c main_arg0) (V c main_arg2) (iblk0 V c 0 t) (iblk0 V c 1 t) j _ (fun k => ?_) (fun k => ?_)
  · show V c main_arg0 (((cfg0.win 0).blk t).view.emb (rowAt j k)) = V c main_arg0 (nodeRow (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (colAt j k)) = V c main_arg2 (weightCol (((cfg0.win 2).blk t).view.emb j) k)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result is in tile t iff each coordinate is in the tile's range. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index is in the tile of the point numbered by its row divided by 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := lt_of_lt_of_eq (by omega : (i 0).val / 5000 < 20) N_0.symm
  obtain ⟨e0, e1, e2, e3, e4, e5⟩ := block_positions ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_tile]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- The array the first region leaves: the product over all nodes. -/
theorem final (c : Dev nD) : (dat0 V c).arrAt 2 cfg0.N = dense (V c main_arg0) (V c main_arg2) :=
  (dat0 V c).arrAt_eq_of_cover 2 _ (fun t _ => flushed_eq V c t) covered

end Cert.KernelIdeal.Region0

end
-- ==== Proof.Region1.lean ====
/-
  The second region: the array it leaves is the product of ALL rows of `relu` of the first layer's output with the
  second weight matrix.

  As in the first region, grid point t loads node rows 5000·t … 5000·t + 4999 and the whole weight matrix; the body
  clamps the loaded rows at zero before the product. Entry (r, q) of the tile is the sum over k of
  `max (h (5000·t + r, k), 0)` times weight entry (k, q): entry (5000·t + r, q) of `relu h · W` over all rows. The
  twenty tiles fill the array.
-/
import proofs.«115015_j18940805775462_1_alg».proof.Proof.SpecRead
import proofs.«115015_j18940805775462_1_alg».proof.Proof.Payload
import proofs.«115015_j18940805775462_1_alg».proof.Proof.Gen.KernelIdeal.Frame

set_option maxRecDepth 16384

noncomputable section

namespace Cert.KernelIdeal.Region1

open Cert.KernelIdeal Cert.KernelIdeal.Gen Cert.KernelIdeal.Payload Cert.GraphConv
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the node tile and the result tile at block row t, the weight matrix whole. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A tile entry is the entry of the product of the clamped array, when the tile's operands are the arrays' entries at the matching places. -/
theorem tile_entry (X : (⟨S100000x128, .f32⟩ : BufTy).Contents (Elt Ideal)) (Wt : (⟨S128x128, .f32⟩ : BufTy).Contents (Elt Ideal))
    (x0 : Vec Ideal S5000x128 .f32) (x1 : Vec Ideal S128x128 .f32) (j : S5000x128.Idx) (i : S100000x128.Idx)
    (h0 : ∀ k : Fin 128, x0 (rowAt j k) = X (nodeRow i k))
    (h1 : ∀ k : Fin 128, x1 (colAt j k) = Wt (weightCol i k)) :
    k1_pay1 (F := Ideal) x0 x1 j = dense (relu X) Wt i := by
  rw [pay1_apply, dense_apply]
  exact Finset.sum_congr rfl fun k _ => by rw [h0 k, h1 k, relu_apply]

/-- What point t writes back is tile t of the product of the clamped array with the weights, as the region finds them. -/
theorem flushed_eq (c : Dev nD) (t : Fin cfg1.N) :
    (dat1 V c).flushed 2 t = ((cfg1.win 2).blk t).view.read (Elt Ideal) (dense (relu (V c main_v48)) (V c main_arg4)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4, e5⟩ := block_positions t
  funext j
  show k1_pay1 (F := Ideal) (iblk1 V c 0 t) (iblk1 V c 1 t) j
    = dense (relu (V c main_v48)) (V c main_arg4) (((cfg1.win 2).blk t).view.emb j)
  refine tile_entry (V c main_v48) (V c main_arg4) (iblk1 V c 0 t) (iblk1 V c 1 t) j _ (fun k => ?_) (fun k => ?_)
  · show V c main_v48 (((cfg1.win 0).blk t).view.emb (rowAt j k)) = V c main_v48 (nodeRow (((cfg1.win 2).blk t).view.emb j) k)
    refine congrArg (V c main_v48) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_arg4 (((cfg1.win 1).blk t).view.emb (colAt j k)) = V c main_arg4 (weightCol (((cfg1.win 2).blk t).view.emb j) k)
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result is in tile t iff each coordinate is in the tile's range. -/
theorem mem_tile (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Every index is in the tile of the point numbered by its row divided by 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  obtain ⟨e0, e1, e2, e3, e4, e5⟩ := block_positions ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_tile]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; omega

/-- The array the second region leaves: the product of the clamped rows over all nodes. -/
theorem final (c : Dev nD) : (dat1 V c).arrAt 2 cfg1.N = dense (relu (V c main_v48)) (V c main_arg4) :=
  (dat1 V c).arrAt_eq_of_cover 2 _ (fun t _ => flushed_eq V c t) covered

end Cert.KernelIdeal.Region1

end
-- ==== Proof.Region2.lean ====
/-
  The third region: the array it leaves is the output column `relu h · Wh + bh` over ALL nodes.

  Grid point t loads node rows 5000·t … 5000·t + 4999 of the second layer's output, the whole 128 × 1 weight column
  and the 1 × 1 bias, clamps the rows at zero, multiplies, adds the bias entry to each of the 5000 results and
  writes them back as rows 5000·t … 5000·t + 4999 of the output column. Entry r of that tile is the sum over k of
  `max (h (5000·t + r, k), 0)` times `Wh (k, 0)`, plus the bias entry: entry 5000·t + r of the column over all nodes.
  The twenty tiles fill the column.
-/
import proofs.«115015_j18940805775462_1_alg».proof.Proof.SpecRead
import proofs.«115015_j18940805775462_1_alg».proof.Proof.Payload
import proofs.«115015_j18940805775462_1_alg».proof.Proof.Gen.KernelIdeal.Frame

set_option maxRecDepth 16384

noncomputable section

namespace Cert.KernelIdeal.Region2

open Cert.KernelIdeal Cert.KernelIdeal.Gen Cert.KernelIdeal.Payload Cert.GraphConv
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the node tile and the output tile at block row t, the weight
    column and the bias whole. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A tile entry is the column's entry, when the tile's operands are the arrays' entries at the matching places. -/
theorem tile_entry (H : (⟨S100000x128, .f32⟩ : BufTy).Contents (Elt Ideal)) (Wh : (⟨S128x1, .f32⟩ : BufTy).Contents (Elt Ideal))
    (B : (⟨S1x1, .f32⟩ : BufTy).Contents (Elt Ideal))
    (x0 : Vec Ideal S5000x128 .f32) (x1 : Vec Ideal S128x1 .f32) (x2 : Vec Ideal S1x1 .f32) (j : S5000x1.Idx) (i : S100000x1.Idx)
    (h0 : ∀ k : Fin 128, x0 (hrowAt j k) = H (headRow i k))
    (h1 : ∀ k : Fin 128, x1 (hcolAt j k) = Wh (headCol i k))
    (h2 : x2 origin11 = B (biasAt i)) :
    k2_pay1 (F := Ideal) x0 x1 x2 j = headOutOf H Wh B i := by
  rw [pay2_apply, headOutOf_apply, h2]
  exact congrArg (· + _) (Finset.sum_congr rfl fun k _ => by rw [h0 k, h1 k])

/-- What point t writes back is tile t of the output column of the arrays as the region finds them. -/
theorem flushed_eq (c : Dev nD) (t : Fin cfg2.N) :
    (dat2 V c).flushed 3 t
      = ((cfg2.win 3).blk t).view.read (Elt Ideal) (headOutOf (V c main_v65) (V c main_arg6) (V c main_v66)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x1) origin, View.ld_unit_zero (S := S1x1) origin]
  obtain ⟨e0, e1, e2, e3, e4, e5, e6, e7⟩ := block_positions t
  funext j
  show k2_pay1 (F := Ideal) (iblk2 V c 0 t) (iblk2 V c 1 t) (iblk2 V c 2 t) j
    = headOutOf (V c main_v65) (V c main_arg6) (V c main_v66) (((cfg2.win 3).blk t).view.emb j)
  refine tile_entry (V c main_v65) (V c main_arg6) (V c main_v66) (iblk2 V c 0 t) (iblk2 V c 1 t) (iblk2 V c 2 t) j _ (fun k => ?_) (fun k => ?_) ?_
  · show V c main_v65 (((cfg2.win 0).blk t).view.emb (hrowAt j k)) = V c main_v65 (headRow (((cfg2.win 3).blk t).view.emb j) k)
    refine congrArg (V c main_v65) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_arg6 (((cfg2.win 1).blk t).view.emb (hcolAt j k)) = V c main_arg6 (headCol (((cfg2.win 3).blk t).view.emb j) k)
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 1 + 1 * (j 1).val = win2_3.index t (1 : Fin 2) * 1 + 1 * (j 1).val; omega
  · show V c main_v66 (((cfg2.win 2).blk t).view.emb origin11) = V c main_v66 (biasAt (((cfg2.win 3).blk t).view.emb j))
    refine congrArg (V c main_v66) (funext fun a => Fin.ext ?_)
    match a with
    | ⟨0, _⟩ => show win2_2.index t (0 : Fin 2) * 1 + 1 * 0 = 0; omega
    | ⟨1, _⟩ => show win2_2.index t (1 : Fin 2) * 1 + 1 * 0 = 0; omega

/-- An index of the output column is in tile t iff each coordinate is in the tile's range. -/
theorem mem_tile (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v67).slice (win2_3.rect t)).set ↔ _
  rw [View.set_slice_whole, Rect.mem_set_unit]
  exact Iff.rfl

/-- Every index is in the tile of the point numbered by its row divided by 5000. -/
theorem covered (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have ht : (i 0).val / 5000 < cfg2.N := lt_of_lt_of_eq (by omega : (i 0).val / 5000 < 20) N_2.symm
  obtain ⟨e0, e1, e2, e3, e4, e5, e6, e7⟩ := block_positions ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_tile]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 1 ≤ (i 1).val ∧ (i 1).val < win2_3.index ⟨(i 0).val / 5000, ht⟩ (1 : Fin 2) * 1 + 1; omega

/-- The array the third region leaves: the output column over all nodes. -/
theorem final (c : Dev nD) :
    (dat2 V c).arrAt 3 cfg2.N = headOutOf (V c main_v65) (V c main_arg6) (V c main_v66) :=
  (dat2 V c).arrAt_eq_of_cover 3 _ (fun t _ => flushed_eq V c t) covered

end Cert.KernelIdeal.Region2

end
-- ==== Proof.HostStretch.lean ====
/-
  The host stretches of the kernel's @main, read once each over an ARBITRARY starting valuation `W` of the buffers.

  Before the first region: the edge endpoints with the self-loops appended, and the weight of every edge, as the
  shared functions of the edge list (`srcOf`, `dstOf`, `edgeNorm`). Between the regions: one `aggregate` of the
  region's output with those three and the layer's bias. Every other buffer a later step reads is left as it was.
-/
import proofs.«115015_j18940805775462_1_alg».proof.Proof.Chain
import proofs.«115015_j18940805775462_1_alg».proof.Proof.Gen.KernelIdeal.Launch
import Idealize.ShloMosaic.Lib.StableHlo.Run

set_option maxRecDepth 16384

noncomputable section

namespace Cert.KernelIdeal.HostStretch

open Cert.KernelIdeal Cert.KernelIdeal.Gen Cert.GraphConv
open Idealize.ShloMosaic Idealize.ShloMosaic.TcCoe Idealize.SL.Sem Idealize.ShloMosaic.StableHlo

variable {F : FTy → Type} [FloatOps F]

/-! ## Before the first region -/

/-- The sources with the loops appended. -/
theorem pre_src (W : Valuation τ sig (Elt F)) :
    StableHlo.after hostOps0_2 (StableHlo.after hostOps0_1 (StableHlo.after hostOps0 W)) (Proc.devRef .tc main_v5) = srcOf (W (Proc.devRef .tc main_arg1)) := by
  after_results_simp <;> rfl

/-- The destinations with the loops appended. -/
theorem pre_dst (W : Valuation τ sig (Elt F)) :
    StableHlo.after hostOps0_2 (StableHlo.after hostOps0_1 (StableHlo.after hostOps0 W)) (Proc.devRef .tc main_v6) = dstOf (W (Proc.devRef .tc main_arg1)) := by
  after_results_simp <;> rfl

set_option maxHeartbeats 4000000 in
/-- The weight of every edge. -/
theorem pre_norm (W : Valuation τ sig (Elt F)) :
    StableHlo.after hostOps0_2 (StableHlo.after hostOps0_1 (StableHlo.after hostOps0 W)) (Proc.devRef .tc main_v31)
      = edgeNorm (srcOf (W (Proc.devRef .tc main_arg1))) (dstOf (W (Proc.devRef .tc main_arg1))) := by
  after_results_simp <;> rfl

theorem pre_keep_arg0 (W : Valuation τ sig (Elt F)) :
    StableHlo.after hostOps0_2 (StableHlo.after hostOps0_1 (StableHlo.after hostOps0 W)) (Proc.devRef .tc main_arg0) = W (Proc.devRef .tc main_arg0) := by
  after_results_simp
theorem pre_keep_arg2 (W : Valuation τ sig (Elt F)) :
    StableHlo.after hostOps0_2 (StableHlo.after hostOps0_1 (StableHlo.after hostOps0 W)) (Proc.devRef .tc main_arg2) = W (Proc.devRef .tc main_arg2) := by
  after_results_simp
theorem pre_keep_arg3 (W : Valuation τ sig (Elt F)) :
    StableHlo.after hostOps0_2 (StableHlo.after hostOps0_1 (StableHlo.after hostOps0 W)) (Proc.devRef .tc main_arg3) = W (Proc.devRef .tc main_arg3) := by
  after_results_simp
theorem pre_keep_arg4 (W : Valuation τ sig (Elt F)) :
    StableHlo.after hostOps0_2 (StableHlo.after hostOps0_1 (StableHlo.after hostOps0 W)) (Proc.devRef .tc main_arg4) = W (Proc.devRef .tc main_arg4) := by
  after_results_simp
theorem pre_keep_arg5 (W : Valuation τ sig (Elt F)) :
    StableHlo.after hostOps0_2 (StableHlo.after hostOps0_1 (StableHlo.after hostOps0 W)) (Proc.devRef .tc main_arg5) = W (Proc.devRef .tc main_arg5) := by
  after_results_simp
theorem pre_keep_arg6 (W : Valuation τ sig (Elt F)) :
    StableHlo.after hostOps0_2 (StableHlo.after hostOps0_1 (StableHlo.after hostOps0 W)) (Proc.devRef .tc main_arg6) = W (Proc.devRef .tc main_arg6) := by
  after_results_simp
theorem pre_keep_arg7 (W : Valuation τ sig (Elt F)) :
    StableHlo.after hostOps0_2 (StableHlo.after hostOps0_1 (StableHlo.after hostOps0 W)) (Proc.devRef .tc main_arg7) = W (Proc.devRef .tc main_arg7) := by
  after_results_simp

/-! ## Between the first and the second region -/

/-- The first layer's aggregation of region 0's output. -/
theorem mid1_agg (W : Valuation τ sig (Elt F)) :
    StableHlo.after hostOps1 W (Proc.devRef .tc main_v48)
      = aggregate (W (Proc.devRef .tc main_v32)) (W (Proc.devRef .tc main_v5)) (W (Proc.devRef .tc main_v6))
          (W (Proc.devRef .tc main_v31)) (W (Proc.devRef .tc main_arg3)) := by
  after_results_simp <;> rfl

theorem mid1_keep_v5 (W : Valuation τ sig (Elt F)) :
    StableHlo.after hostOps1 W (Proc.devRef .tc main_v5) = W (Proc.devRef .tc main_v5) := by
  after_results_simp
theorem mid1_keep_v6 (W : Valuation τ sig (Elt F)) :
    StableHlo.after hostOps1 W (Proc.devRef .tc main_v6) = W (Proc.devRef .tc main_v6) := by
  after_results_simp
theorem mid1_keep_v31 (W : Valuation τ sig (Elt F)) :
    StableHlo.after hostOps1 W (Proc.devRef .tc main_v31) = W (Proc.devRef .tc main_v31) := by
  after_results_simp
theorem mid1_keep_arg4 (W : Valuation τ sig (Elt F)) :
    StableHlo.after hostOps1 W (Proc.devRef .tc main_arg4) = W (Proc.devRef .tc main_arg4) := by
  after_results_simp
theorem mid1_keep_arg5 (W : Valuation τ sig (Elt F)) :
    StableHlo.after hostOps1 W (Proc.devRef .tc main_arg5) = W (Proc.devRef .tc main_arg5) := by
  after_results_simp
theorem mid1_keep_arg6 (W : Valuation τ sig (Elt F)) :
    StableHlo.after hostOps1 W (Proc.devRef .tc main_arg6) = W (Proc.devRef .tc main_arg6) := by
  after_results_simp
theorem mid1_keep_arg7 (W : Valuation τ sig (Elt F)) :
    StableHlo.after hostOps1 W (Proc.devRef .tc main_arg7) = W (Proc.devRef .tc main_arg7) := by
  after_results_simp

/-! ## Between the second and the third region -/

/-- The second layer's aggregation of region 1's output. -/
theorem mid2_agg (W : Valuation τ sig (Elt F)) :
    StableHlo.after hostOps2 W (Proc.devRef .tc main_v65)
      = aggregate (W (Proc.devRef .tc main_v49)) (W (Proc.devRef .tc main_v5)) (W (Proc.devRef .tc main_v6))
          (W (Proc.devRef .tc main_v31)) (W (Proc.devRef .tc main_arg5)) := by
  after_results_simp <;> rfl

/-- The head's bias as a 1 × 1 array. -/
theorem mid2_bias (W : Valuation τ sig (Elt F)) :
    StableHlo.after hostOps2 W (Proc.devRef .tc main_v66)
      = shapeCast S1x1 (W (Proc.devRef .tc main_arg7)) shapeCasts_S1_S1x1 := by
  after_results_simp <;> rfl

theorem mid2_keep_arg6 (W : Valuation τ sig (Elt F)) :
    StableHlo.after hostOps2 W (Proc.devRef .tc main_arg6) = W (Proc.devRef .tc main_arg6) := by
  after_results_simp

end Cert.KernelIdeal.HostStretch

end
-- ==== Proof.KernelValue.lean ====
/-
  The idealized kernel's result buffer ends at the network of the argument arrays.

  The last boundary's contents of the result buffer are read backwards through @main: the third region leaves the
  output column of what it was entered with; that is the second aggregation (a host stretch) of what the second
  region left, which is the clamped product of the first aggregation of what the first region left, the product of
  the node features with the first weights. The edge endpoints and weights computed before the first region, and
  every argument array, reach each later step unchanged: no region and no later stretch writes them.
-/
import proofs.«115015_j18940805775462_1_alg».proof.Proof.Region0
import proofs.«115015_j18940805775462_1_alg».proof.Proof.Region1
import proofs.«115015_j18940805775462_1_alg».proof.Proof.Region2
import proofs.«115015_j18940805775462_1_alg».proof.Proof.HostStretch

set_option maxRecDepth 16384

noncomputable section

namespace Cert.KernelIdeal.KernelValue

open Cert.KernelIdeal Cert.KernelIdeal.Gen Cert.KernelIdeal.HostStretch Cert.GraphConv
open Idealize.ShloMosaic Idealize.ShloMosaic.TcCoe Idealize.SL.Sem

variable (m : (ℓ : Loc nD τ sig) → Buf (Elt Ideal) ℓ) (ρ : Dev nD → PrngReg) (c : Dev nD)

/-- A length-1 vector has one index. -/
instance : Subsingleton S1.Idx := ⟨fun a b => funext fun d => by
  obtain rfl : d = 0 := Subsingleton.elim d 0
  exact Subsingleton.elim (α := Fin 1) (a 0) (b 0)⟩

/-- The bias as a 1 × 1 array: the reshape the kernel's program makes and the broadcast the reference makes read the
    same one entry. -/
theorem bias_forms (bh : (⟨S1, .f32⟩ : BufTy).Contents (Elt Ideal)) :
    shapeCast S1x1 bh shapeCasts_S1_S1x1 = broadcastInDim S1x1 ![1] Cert.ReferenceIdeal.Gen.bcast_S1_S1x1_1 bh := by
  funext i
  unfold shapeCast broadcastInDim
  exact congrArg bh (Subsingleton.elim _ _)

/-! ## At the first region's entry -/

theorem src3 : W3 m ρ c (Proc.devRef .tc main_v5) = srcOf (m ((c.tc : Thread nD τ).loc main_arg1)) := pre_src (W0 m ρ c)
theorem dst3 : W3 m ρ c (Proc.devRef .tc main_v6) = dstOf (m ((c.tc : Thread nD τ).loc main_arg1)) := pre_dst (W0 m ρ c)
theorem nrm3 : W3 m ρ c (Proc.devRef .tc main_v31)
    = edgeNorm (srcOf (m ((c.tc : Thread nD τ).loc main_arg1))) (dstOf (m ((c.tc : Thread nD τ).loc main_arg1))) := pre_norm (W0 m ρ c)
theorem arg0_3 : W3 m ρ c (Proc.devRef .tc main_arg0) = m ((c.tc : Thread nD τ).loc main_arg0) := pre_keep_arg0 (W0 m ρ c)
theorem arg2_3 : W3 m ρ c (Proc.devRef .tc main_arg2) = m ((c.tc : Thread nD τ).loc main_arg2) := pre_keep_arg2 (W0 m ρ c)
theorem arg3_3 : W3 m ρ c (Proc.devRef .tc main_arg3) = m ((c.tc : Thread nD τ).loc main_arg3) := pre_keep_arg3 (W0 m ρ c)
theorem arg4_3 : W3 m ρ c (Proc.devRef .tc main_arg4) = m ((c.tc : Thread nD τ).loc main_arg4) := pre_keep_arg4 (W0 m ρ c)
theorem arg5_3 : W3 m ρ c (Proc.devRef .tc main_arg5) = m ((c.tc : Thread nD τ).loc main_arg5) := pre_keep_arg5 (W0 m ρ c)
theorem arg6_3 : W3 m ρ c (Proc.devRef .tc main_arg6) = m ((c.tc : Thread nD τ).loc main_arg6) := pre_keep_arg6 (W0 m ρ c)
theorem arg7_3 : W3 m ρ c (Proc.devRef .tc main_arg7) = m ((c.tc : Thread nD τ).loc main_arg7) := pre_keep_arg7 (W0 m ρ c)

/-! ## After the first region -/

/-- The first region's output: the product of the node features with the first weights. -/
theorem lin1_4 : W4 m ρ c (Proc.devRef .tc main_v32)
    = dense (m ((c.tc : Thread nD τ).loc main_arg0)) (m ((c.tc : Thread nD τ).loc main_arg2)) := by
  refine (W4_arr m ρ c 2).trans ((Region0.final (V3 m ρ) c).trans ?_)
  show dense (W3 m ρ c (Proc.devRef .tc main_arg0)) (W3 m ρ c (Proc.devRef .tc main_arg2)) = _
  rw [arg0_3, arg2_3]

theorem src4 : W4 m ρ c (Proc.devRef .tc main_v5) = srcOf (m ((c.tc : Thread nD τ).loc main_arg1)) :=
  (W4_of_ne m ρ c main_v5 (by decide)).trans (src3 m ρ c)
theorem dst4 : W4 m ρ c (Proc.devRef .tc main_v6) = dstOf (m ((c.tc : Thread nD τ).loc main_arg1)) :=
  (W4_of_ne m ρ c main_v6 (by decide)).trans (dst3 m ρ c)
theorem nrm4 : W4 m ρ c (Proc.devRef .tc main_v31)
    = edgeNorm (srcOf (m ((c.tc : Thread nD τ).loc main_arg1))) (dstOf (m ((c.tc : Thread nD τ).loc main_arg1))) :=
  (W4_of_ne m ρ c main_v31 (by decide)).trans (nrm3 m ρ c)
theorem arg3_4 : W4 m ρ c (Proc.devRef .tc main_arg3) = m ((c.tc : Thread nD τ).loc main_arg3) :=
  (W4_of_ne m ρ c main_arg3 (by decide)).trans (arg3_3 m ρ c)
theorem arg4_4 : W4 m ρ c (Proc.devRef .tc main_arg4) = m ((c.tc : Thread nD τ).loc main_arg4) :=
  (W4_of_ne m ρ c main_arg4 (by decide)).trans (arg4_3 m ρ c)
theorem arg5_4 : W4 m ρ c (Proc.devRef .tc main_arg5) = m ((c.tc : Thread nD τ).loc main_arg5) :=
  (W4_of_ne m ρ c main_arg5 (by decide)).trans (arg5_3 m ρ c)
theorem arg6_4 : W4 m ρ c (Proc.devRef .tc main_arg6) = m ((c.tc : Thread nD τ).loc main_arg6) :=
  (W4_of_ne m ρ c main_arg6 (by decide)).trans (arg6_3 m ρ c)
theorem arg7_4 : W4 m ρ c (Proc.devRef .tc main_arg7) = m ((c.tc : Thread nD τ).loc main_arg7) :=
  (W4_of_ne m ρ c main_arg7 (by decide)).trans (arg7_3 m ρ c)

/-! ## At the second region's entry -/

/-- The first layer before its `relu`. -/
def layer1 : (⟨S100000x128, .f32⟩ : BufTy).Contents (Elt Ideal) :=
  aggregate (dense (m ((c.tc : Thread nD τ).loc main_arg0)) (m ((c.tc : Thread nD τ).loc main_arg2)))
    (srcOf (m ((c.tc : Thread nD τ).loc main_arg1))) (dstOf (m ((c.tc : Thread nD τ).loc main_arg1)))
    (edgeNorm (srcOf (m ((c.tc : Thread nD τ).loc main_arg1))) (dstOf (m ((c.tc : Thread nD τ).loc main_arg1))))
    (m ((c.tc : Thread nD τ).loc main_arg3))

theorem agg1_5 : W5 m ρ c (Proc.devRef .tc main_v48) = layer1 m c := by
  refine (mid1_agg (W4 m ρ c)).trans ?_
  rw [lin1_4, src4, dst4, nrm4, arg3_4]
  rfl

theorem src5 : W5 m ρ c (Proc.devRef .tc main_v5) = srcOf (m ((c.tc : Thread nD τ).loc main_arg1)) :=
  (mid1_keep_v5 (W4 m ρ c)).trans (src4 m ρ c)
theorem dst5 : W5 m ρ c (Proc.devRef .tc main_v6) = dstOf (m ((c.tc : Thread nD τ).loc main_arg1)) :=
  (mid1_keep_v6 (W4 m ρ c)).trans (dst4 m ρ c)
theorem nrm5 : W5 m ρ c (Proc.devRef .tc main_v31)
    = edgeNorm (srcOf (m ((c.tc : Thread nD τ).loc main_arg1))) (dstOf (m ((c.tc : Thread nD τ).loc main_arg1))) :=
  (mid1_keep_v31 (W4 m ρ c)).trans (nrm4 m ρ c)
theorem arg4_5 : W5 m ρ c (Proc.devRef .tc main_arg4) = m ((c.tc : Thread nD τ).loc main_arg4) :=
  (mid1_keep_arg4 (W4 m ρ c)).trans (arg4_4 m ρ c)
theorem arg5_5 : W5 m ρ c (Proc.devRef .tc main_arg5) = m ((c.tc : Thread nD τ).loc main_arg5) :=
  (mid1_keep_arg5 (W4 m ρ c)).trans (arg5_4 m ρ c)
theorem arg6_5 : W5 m ρ c (Proc.devRef .tc main_arg6) = m ((c.tc : Thread nD τ).loc main_arg6) :=
  (mid1_keep_arg6 (W4 m ρ c)).trans (arg6_4 m ρ c)
theorem arg7_5 : W5 m ρ c (Proc.devRef .tc main_arg7) = m ((c.tc : Thread nD τ).loc main_arg7) :=
  (mid1_keep_arg7 (W4 m ρ c)).trans (arg7_4 m ρ c)

/-! ## After the second region -/

/-- The second region's output: the clamped first layer times the second weights. -/
theorem lin2_6 : W6 m ρ c (Proc.devRef .tc main_v49)
    = dense (relu (layer1 m c)) (m ((c.tc : Thread nD τ).loc main_arg4)) := by
  refine (W6_arr m ρ c 2).trans ((Region1.final (V5 m ρ) c).trans ?_)
  show dense (relu (W5 m ρ c (Proc.devRef .tc main_v48))) (W5 m ρ c (Proc.devRef .tc main_arg4)) = _
  rw [agg1_5, arg4_5]

theorem src6 : W6 m ρ c (Proc.devRef .tc main_v5) = srcOf (m ((c.tc : Thread nD τ).loc main_arg1)) :=
  (W6_of_ne m ρ c main_v5 (by decide)).trans (src5 m ρ c)
theorem dst6 : W6 m ρ c (Proc.devRef .tc main_v6) = dstOf (m ((c.tc : Thread nD τ).loc main_arg1)) :=
  (W6_of_ne m ρ c main_v6 (by decide)).trans (dst5 m ρ c)
theorem nrm6 : W6 m ρ c (Proc.devRef .tc main_v31)
    = edgeNorm (srcOf (m ((c.tc : Thread nD τ).loc main_arg1))) (dstOf (m ((c.tc : Thread nD τ).loc main_arg1))) :=
  (W6_of_ne m ρ c main_v31 (by decide)).trans (nrm5 m ρ c)
theorem arg5_6 : W6 m ρ c (Proc.devRef .tc main_arg5) = m ((c.tc : Thread nD τ).loc main_arg5) :=
  (W6_of_ne m ρ c main_arg5 (by decide)).trans (arg5_5 m ρ c)
theorem arg6_6 : W6 m ρ c (Proc.devRef .tc main_arg6) = m ((c.tc : Thread nD τ).loc main_arg6) :=
  (W6_of_ne m ρ c main_arg6 (by decide)).trans (arg6_5 m ρ c)
theorem arg7_6 : W6 m ρ c (Proc.devRef .tc main_arg7) = m ((c.tc : Thread nD τ).loc main_arg7) :=
  (W6_of_ne m ρ c main_arg7 (by decide)).trans (arg7_5 m ρ c)

/-! ## At the third region's entry -/

/-- The second layer before its `relu`. -/
def layer2 : (⟨S100000x128, .f32⟩ : BufTy).Contents (Elt Ideal) :=
  aggregate (dense (relu (layer1 m c)) (m ((c.tc : Thread nD τ).loc main_arg4)))
    (srcOf (m ((c.tc : Thread nD τ).loc main_arg1))) (dstOf (m ((c.tc : Thread nD τ).loc main_arg1)))
    (edgeNorm (srcOf (m ((c.tc : Thread nD τ).loc main_arg1))) (dstOf (m ((c.tc : Thread nD τ).loc main_arg1))))
    (m ((c.tc : Thread nD τ).loc main_arg5))

theorem agg2_7 : W7 m ρ c (Proc.devRef .tc main_v65) = layer2 m c := by
  refine (mid2_agg (W6 m ρ c)).trans ?_
  rw [lin2_6, src6, dst6, nrm6, arg5_6]
  rfl

theorem bias_7 : W7 m ρ c (Proc.devRef .tc main_v66)
    = broadcastInDim S1x1 ![1] Cert.ReferenceIdeal.Gen.bcast_S1_S1x1_1 (m ((c.tc : Thread nD τ).loc main_arg7)) := by
  refine (mid2_bias (W6 m ρ c)).trans ?_
  rw [arg7_6]
  exact bias_forms _

theorem arg6_7 : W7 m ρ c (Proc.devRef .tc main_arg6) = m ((c.tc : Thread nD τ).loc main_arg6) :=
  (mid2_keep_arg6 (W6 m ρ c)).trans (arg6_6 m ρ c)

/-! ## The result -/

/-- The result buffer's last contents: the network of the argument arrays. -/
theorem result_eq : W8 m ρ c (Proc.devRef .tc main_v67)
    = network (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (W8_arr m ρ c 3).trans ((Region2.final (V7 m ρ) c).trans ?_)
  show headOutOf (W7 m ρ c (Proc.devRef .tc main_v65)) (W7 m ρ c (Proc.devRef .tc main_arg6)) (W7 m ρ c (Proc.devRef .tc main_v66)) = _
  rw [agg2_7, arg6_7, bias_7]
  rfl

end Cert.KernelIdeal.KernelValue

end
-- ==== Proof.RefStretch.lean ====
/-
  The reference's @main in four stretches, each read once over an ARBITRARY starting valuation `W` of the buffers.

  First stretch: the edge rows, the endpoints with the self-loops appended, the weight of every edge, and the product
  of the node features with the first weights. Second: one aggregation and the `relu`. Third: the endpoints and the
  edge weights once more, from the edge rows the first stretch left, and the second product. Fourth: the second
  aggregation, the `relu`, the product with the weight column and the bias. Each stretch's results are the shared
  functions (`srcOf`, `edgeNorm`, `aggregate`, …) of what it reads; every other buffer a later stretch reads is kept.
-/
import proofs.«115015_j18940805775462_1_alg».proof.Proof.Chain
import proofs.«115015_j18940805775462_1_alg».proof.Proof.RefRun

set_option maxRecDepth 16384

noncomputable section

namespace Cert.ReferenceIdeal.Stretch

open Cert.ReferenceIdeal Cert.ReferenceIdeal.Gen Cert.GraphConv
open Idealize.ShloMosaic Idealize.ShloMosaic.TcCoe Idealize.SL.Sem Idealize.ShloMosaic.StableHlo

variable {F : FTy → Type} [FloatOps F]

/-! ## The four stretches -/

/-- Operations 1 … 44: the edge endpoints, the edge weights, the first product. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v5 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v5 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v5 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 45 … 66: the first aggregation and its `relu`. -/
abbrev opsB : List (HloOp τ sig (Elt F)) :=
  [ nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- Operations 67 … 106: the endpoints and weights again, the second product. -/
abbrev opsC : List (HloOp τ sig (Elt F)) :=
  [ nullary main_v50 (iotaInDim S100000 32 0),
    binary main_v1 main_v50 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v50 main_v52 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_10 (constant S_ .f32 0x3F800000#32),
    unary main_cst_10 main_v53 (broadcastInDim S1700000 ![] bcast_S_S1700000 : (⟨S_, .f32⟩ : BufTy).Contents (Elt F) → (⟨S1700000, .f32⟩ : BufTy).Contents (Elt F)),
    nullary main_cst_11 (constant S_ .f32 0x00000000#32),
    unary main_cst_11 main_v54 (broadcastInDim S100000 ![] bcast_S_S100000 : (⟨S_, .f32⟩ : BufTy).Contents (Elt F) → (⟨S100000, .f32⟩ : BufTy).Contents (Elt F)),
    unary main_v52 main_v55 (broadcastInDim S1700000x1 ![0] bcast_S1700000_S1700000x1_0 : (⟨S1700000, .i32⟩ : BufTy).Contents (Elt F) → (⟨S1700000x1, .i32⟩ : BufTy).Contents (Elt F)),
    ternary main_v54 main_v55 main_v53 main_v56 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v57 (broadcastInDim S100000 ![] bcast_S_S100000 : (⟨S_, .f32⟩ : BufTy).Contents (Elt F) → (⟨S100000, .f32⟩ : BufTy).Contents (Elt F)),
    binary main_v56 main_v57 main_v58 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v59 (broadcastInDim S100000 ![] bcast_S_S100000 : (⟨S_, .f32⟩ : BufTy).Contents (Elt F) → (⟨S100000, .f32⟩ : BufTy).Contents (Elt F)),
    binary main_v56 main_v59 main_v60 (maximumf : (⟨S100000, .f32⟩ : BufTy).Contents (Elt F) → (⟨S100000, .f32⟩ : BufTy).Contents (Elt F) → (⟨S100000, .f32⟩ : BufTy).Contents (Elt F)),
    unary main_v60 main_v61 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v58) (TRef.of (T := ⟨S100000, .f32⟩) main_v61) (TRef.of (T := ⟨S100000, .f32⟩) main_call2_v1) (TRef.of (T := ⟨S100000, .f32⟩) main_v62) select,
    nullary main_c_15 (constantI S_ 32 0#32),
    unary main_c_15 main_v63 (broadcastInDim S1700000 ![] bcast_S_S1700000 : (⟨S_, .i32⟩ : BufTy).Contents (Elt F) → (⟨S1700000, .i32⟩ : BufTy).Contents (Elt F)),
    binary main_v51 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v65 (broadcastInDim S1700000 ![] bcast_S_S1700000 : (⟨S_, .i32⟩ : BufTy).Contents (Elt F) → (⟨S1700000, .i32⟩ : BufTy).Contents (Elt F)),
    binary main_v51 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v51 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_17 (constantI S_ 32 0#32),
    unary main_c_17 main_v70 (broadcastInDim S1700000 ![] bcast_S_S1700000 : (⟨S_, .i32⟩ : BufTy).Contents (Elt F) → (⟨S1700000, .i32⟩ : BufTy).Contents (Elt F)),
    binary main_v52 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v72 (broadcastInDim S1700000 ![] bcast_S_S1700000 : (⟨S_, .i32⟩ : BufTy).Contents (Elt F) → (⟨S1700000, .i32⟩ : BufTy).Contents (Elt F)),
    binary main_v52 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v52 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_v49 main_arg4 main_v78 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 107 … 132: the second aggregation, its `relu`, the output column. -/
abbrev opsD : List (HloOp τ sig (Elt F)) :=
  [ nullary main_c_19 (constantI S_ 32 0#32),
    unary main_c_19 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x128 ![0, 1] bcast_S1700000x1_S1700000x128_0_1 : (⟨S1700000x1, .f32⟩ : BufTy).Contents (Elt F) → (⟨S1700000x128, .f32⟩ : BufTy).Contents (Elt F)),
    binary main_v85 main_v87 main_v88 (mulf : (⟨S1700000x128, .f32⟩ : BufTy).Contents (Elt F) → (⟨S1700000x128, .f32⟩ : BufTy).Contents (Elt F) → (⟨S1700000x128, .f32⟩ : BufTy).Contents (Elt F)),
    nullary main_cst_21 (constant S_ .f32 0x00000000#32),
    unary main_cst_21 main_v89 (broadcastInDim S100000x128 ![] bcast_S_S100000x128 : (⟨S_, .f32⟩ : BufTy).Contents (Elt F) → (⟨S100000x128, .f32⟩ : BufTy).Contents (Elt F)),
    unary main_v52 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v94) (TRef.of (T := ⟨S100000x128, .f32⟩) main_call3_v0) (TRef.of (T := ⟨S100000x128, .f32⟩) main_v95) maximumf,
    binary main_v95 main_arg6 main_v96 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg7 main_v97 (broadcastInDim S1x1 ![1] bcast_S1_S1x1_1 : (⟨S1, .f32⟩ : BufTy).Contents (Elt F) → (⟨S1x1, .f32⟩ : BufTy).Contents (Elt F)),
    unary main_v97 main_v98 (broadcastInDim S100000x1 ![0, 1] bcast_S1x1_S100000x1_0_1 : (⟨S1x1, .f32⟩ : BufTy).Contents (Elt F) → (⟨S100000x1, .f32⟩ : BufTy).Contents (Elt F)),
    binary main_v96 main_v98 main_v99 (addf : (⟨S100000x1, .f32⟩ : BufTy).Contents (Elt F) → (⟨S100000x1, .f32⟩ : BufTy).Contents (Elt F) → (⟨S100000x1, .f32⟩ : BufTy).Contents (Elt F)) ]

set_option maxRecDepth 65536 in
set_option maxHeartbeats 4000000 in
/-- @main's operations are the four stretches in order. -/
theorem ops_split : (Cert.ReferenceIdeal.ValueP.ops : List (HloOp τ sig (Elt F))) = opsA ++ (opsB ++ (opsC ++ opsD)) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## First stretch -/

theorem a_sources (W : Valuation τ sig (Elt F)) :
    after opsA W (Proc.devRef .tc main_v1) = edgeSources (W (Proc.devRef .tc main_arg1)) := by
  after_results_simp <;> rfl
theorem a_targets (W : Valuation τ sig (Elt F)) :
    after opsA W (Proc.devRef .tc main_v3) = edgeTargets (W (Proc.devRef .tc main_arg1)) := by
  after_results_simp <;> rfl
theorem a_src (W : Valuation τ sig (Elt F)) :
    after opsA W (Proc.devRef .tc main_v5) = srcOf (W (Proc.devRef .tc main_arg1)) := by
  after_results_simp <;> rfl
theorem a_dst (W : Valuation τ sig (Elt F)) :
    after opsA W (Proc.devRef .tc main_v6) = dstOf (W (Proc.devRef .tc main_arg1)) := by
  after_results_simp <;> rfl
set_option maxHeartbeats 4000000 in
theorem a_norm (W : Valuation τ sig (Elt F)) :
    after opsA W (Proc.devRef .tc main_v31)
      = edgeNorm (srcOf (W (Proc.devRef .tc main_arg1))) (dstOf (W (Proc.devRef .tc main_arg1))) := by
  after_results_simp <;> rfl
theorem a_lin (W : Valuation τ sig (Elt F)) :
    after opsA W (Proc.devRef .tc main_v32) = dense (W (Proc.devRef .tc main_arg0)) (W (Proc.devRef .tc main_arg2)) := by
  after_results_simp <;> rfl
theorem a_keep_arg0 (W : Valuation τ sig (Elt F)) :
    after opsA W (Proc.devRef .tc main_arg0) = W (Proc.devRef .tc main_arg0) := by
  after_results_simp
theorem a_keep_arg1 (W : Valuation τ sig (Elt F)) :
    after opsA W (Proc.devRef .tc main_arg1) = W (Proc.devRef .tc main_arg1) := by
  after_results_simp
theorem a_keep_arg2 (W : Valuation τ sig (Elt F)) :
    after opsA W (Proc.devRef .tc main_arg2) = W (Proc.devRef .tc main_arg2) := by
  after_results_simp
theorem a_keep_arg3 (W : Valuation τ sig (Elt F)) :
    after opsA W (Proc.devRef .tc main_arg3) = W (Proc.devRef .tc main_arg3) := by
  after_results_simp
theorem a_keep_arg4 (W : Valuation τ sig (Elt F)) :
    after opsA W (Proc.devRef .tc main_arg4) = W (Proc.devRef .tc main_arg4) := by
  after_results_simp
theorem a_keep_arg5 (W : Valuation τ sig (Elt F)) :
    after opsA W (Proc.devRef .tc main_arg5) = W (Proc.devRef .tc main_arg5) := by
  after_results_simp
theorem a_keep_arg6 (W : Valuation τ sig (Elt F)) :
    after opsA W (Proc.devRef .tc main_arg6) = W (Proc.devRef .tc main_arg6) := by
  after_results_simp
theorem a_keep_arg7 (W : Valuation τ sig (Elt F)) :
    after opsA W (Proc.devRef .tc main_arg7) = W (Proc.devRef .tc main_arg7) := by
  after_results_simp

/-! ## Second stretch -/

set_option maxHeartbeats 4000000 in
theorem b_layer (W : Valuation τ sig (Elt F)) :
    after opsB W (Proc.devRef .tc main_v49)
      = relu (aggregate (W (Proc.devRef .tc main_v32)) (W (Proc.devRef .tc main_v5)) (W (Proc.devRef .tc main_v6))
          (W (Proc.devRef .tc main_v31)) (W (Proc.devRef .tc main_arg3))) := by
  after_results_simp <;> rfl
theorem b_keep_v1 (W : Valuation τ sig (Elt F)) :
    after opsB W (Proc.devRef .tc main_v1) = W (Proc.devRef .tc main_v1) := by
  after_results_simp
theorem b_keep_v3 (W : Valuation τ sig (Elt F)) :
    after opsB W (Proc.devRef .tc main_v3) = W (Proc.devRef .tc main_v3) := by
  after_results_simp
theorem b_keep_arg0 (W : Valuation τ sig (Elt F)) :
    after opsB W (Proc.devRef .tc main_arg0) = W (Proc.devRef .tc main_arg0) := by
  after_results_simp
theorem b_keep_arg1 (W : Valuation τ sig (Elt F)) :
    after opsB W (Proc.devRef .tc main_arg1) = W (Proc.devRef .tc main_arg1) := by
  after_results_simp
theorem b_keep_arg2 (W : Valuation τ sig (Elt F)) :
    after opsB W (Proc.devRef .tc main_arg2) = W (Proc.devRef .tc main_arg2) := by
  after_results_simp
theorem b_keep_arg3 (W : Valuation τ sig (Elt F)) :
    after opsB W (Proc.devRef .tc main_arg3) = W (Proc.devRef .tc main_arg3) := by
  after_results_simp
theorem b_keep_arg4 (W : Valuation τ sig (Elt F)) :
    after opsB W (Proc.devRef .tc main_arg4) = W (Proc.devRef .tc main_arg4) := by
  after_results_simp
theorem b_keep_arg5 (W : Valuation τ sig (Elt F)) :
    after opsB W (Proc.devRef .tc main_arg5) = W (Proc.devRef .tc main_arg5) := by
  after_results_simp
theorem b_keep_arg6 (W : Valuation τ sig (Elt F)) :
    after opsB W (Proc.devRef .tc main_arg6) = W (Proc.devRef .tc main_arg6) := by
  after_results_simp
theorem b_keep_arg7 (W : Valuation τ sig (Elt F)) :
    after opsB W (Proc.devRef .tc main_arg7) = W (Proc.devRef .tc main_arg7) := by
  after_results_simp

/-! ## Third stretch -/

theorem c_src (W : Valuation τ sig (Elt F)) :
    after opsC W (Proc.devRef .tc main_v51) = withLoops (W (Proc.devRef .tc main_v1)) := by
  after_results_simp <;> rfl
theorem c_dst (W : Valuation τ sig (Elt F)) :
    after opsC W (Proc.devRef .tc main_v52) = withLoops (W (Proc.devRef .tc main_v3)) := by
  after_results_simp <;> rfl
set_option maxHeartbeats 4000000 in
theorem c_norm (W : Valuation τ sig (Elt F)) :
    after opsC W (Proc.devRef .tc main_v77)
      = edgeNorm (withLoops (W (Proc.devRef .tc main_v1))) (withLoops (W (Proc.devRef .tc main_v3))) := by
  after_results_simp <;> rfl
theorem c_lin (W : Valuation τ sig (Elt F)) :
    after opsC W (Proc.devRef .tc main_v78) = dense (W (Proc.devRef .tc main_v49)) (W (Proc.devRef .tc main_arg4)) := by
  after_results_simp <;> rfl
theorem c_keep_arg0 (W : Valuation τ sig (Elt F)) :
    after opsC W (Proc.devRef .tc main_arg0) = W (Proc.devRef .tc main_arg0) := by
  after_results_simp
theorem c_keep_arg1 (W : Valuation τ sig (Elt F)) :
    after opsC W (Proc.devRef .tc main_arg1) = W (Proc.devRef .tc main_arg1) := by
  after_results_simp
theorem c_keep_arg2 (W : Valuation τ sig (Elt F)) :
    after opsC W (Proc.devRef .tc main_arg2) = W (Proc.devRef .tc main_arg2) := by
  after_results_simp
theorem c_keep_arg3 (W : Valuation τ sig (Elt F)) :
    after opsC W (Proc.devRef .tc main_arg3) = W (Proc.devRef .tc main_arg3) := by
  after_results_simp
theorem c_keep_arg4 (W : Valuation τ sig (Elt F)) :
    after opsC W (Proc.devRef .tc main_arg4) = W (Proc.devRef .tc main_arg4) := by
  after_results_simp
theorem c_keep_arg5 (W : Valuation τ sig (Elt F)) :
    after opsC W (Proc.devRef .tc main_arg5) = W (Proc.devRef .tc main_arg5) := by
  after_results_simp
theorem c_keep_arg6 (W : Valuation τ sig (Elt F)) :
    after opsC W (Proc.devRef .tc main_arg6) = W (Proc.devRef .tc main_arg6) := by
  after_results_simp
theorem c_keep_arg7 (W : Valuation τ sig (Elt F)) :
    after opsC W (Proc.devRef .tc main_arg7) = W (Proc.devRef .tc main_arg7) := by
  after_results_simp

/-! ## Fourth stretch -/

set_option maxHeartbeats 4000000 in
theorem d_out (W : Valuation τ sig (Elt F)) :
    after opsD W (Proc.devRef .tc main_v99)
      = headOut (aggregate (W (Proc.devRef .tc main_v78)) (W (Proc.devRef .tc main_v51)) (W (Proc.devRef .tc main_v52))
          (W (Proc.devRef .tc main_v77)) (W (Proc.devRef .tc main_arg5))) (W (Proc.devRef .tc main_arg6)) (W (Proc.devRef .tc main_arg7)) := by
  after_results_simp <;> rfl
theorem d_keep_arg0 (W : Valuation τ sig (Elt F)) :
    after opsD W (Proc.devRef .tc main_arg0) = W (Proc.devRef .tc main_arg0) := by
  after_results_simp
theorem d_keep_arg1 (W : Valuation τ sig (Elt F)) :
    after opsD W (Proc.devRef .tc main_arg1) = W (Proc.devRef .tc main_arg1) := by
  after_results_simp
theorem d_keep_arg2 (W : Valuation τ sig (Elt F)) :
    after opsD W (Proc.devRef .tc main_arg2) = W (Proc.devRef .tc main_arg2) := by
  after_results_simp
theorem d_keep_arg3 (W : Valuation τ sig (Elt F)) :
    after opsD W (Proc.devRef .tc main_arg3) = W (Proc.devRef .tc main_arg3) := by
  after_results_simp
theorem d_keep_arg4 (W : Valuation τ sig (Elt F)) :
    after opsD W (Proc.devRef .tc main_arg4) = W (Proc.devRef .tc main_arg4) := by
  after_results_simp
theorem d_keep_arg5 (W : Valuation τ sig (Elt F)) :
    after opsD W (Proc.devRef .tc main_arg5) = W (Proc.devRef .tc main_arg5) := by
  after_results_simp
theorem d_keep_arg6 (W : Valuation τ sig (Elt F)) :
    after opsD W (Proc.devRef .tc main_arg6) = W (Proc.devRef .tc main_arg6) := by
  after_results_simp
theorem d_keep_arg7 (W : Valuation τ sig (Elt F)) :
    after opsD W (Proc.devRef .tc main_arg7) = W (Proc.devRef .tc main_arg7) := by
  after_results_simp

end Cert.ReferenceIdeal.Stretch

end
-- ==== Proof.RefValue.lean ====
/-
  The reference's result is the specification.

  Its @main is read stretch by stretch from the launch contents: the product of the node features with the first
  weights, aggregated over the edges and clamped; the endpoints and the edge weights computed a second time from the
  same edge rows — the same arrays as the first time —; the second product, aggregated and clamped; the output column.
  Composed, that is the network of the argument arrays. No operation writes an argument.
-/
import proofs.«115015_j18940805775462_1_alg».proof.Proof.RefStretch

set_option maxRecDepth 16384

noncomputable section

namespace Cert.ReferenceIdeal.RefValue

open Cert.ReferenceIdeal Cert.ReferenceIdeal.Gen Cert.ReferenceIdeal.Stretch Cert.GraphConv
open Idealize.ShloMosaic Idealize.ShloMosaic.TcCoe Idealize.SL.Sem Idealize.ShloMosaic.StableHlo

variable {F : FTy → Type} [FloatOps F]

/-- The result buffer after all of @main, from any starting contents: the network of the argument buffers. -/
theorem value (W : Valuation τ sig (Elt F)) :
    after Cert.ReferenceIdeal.ValueP.ops W (Proc.devRef .tc main_v99)
      = network (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split, after_append, after_append, after_append]
  rw [d_out]
  rw [c_lin, c_src, c_dst, c_norm, c_keep_arg5, c_keep_arg6, c_keep_arg7]
  rw [b_layer, b_keep_v1, b_keep_v3, b_keep_arg4, b_keep_arg5, b_keep_arg6, b_keep_arg7]
  rw [a_lin, a_src, a_dst, a_norm, a_sources, a_targets, a_keep_arg3, a_keep_arg4, a_keep_arg5, a_keep_arg6, a_keep_arg7]
  rfl

theorem kept_arg0 (W : Valuation τ sig (Elt F)) :
    after Cert.ReferenceIdeal.ValueP.ops W (Proc.devRef .tc main_arg0) = W (Proc.devRef .tc main_arg0) := by
  rw [ops_split, after_append, after_append, after_append, d_keep_arg0, c_keep_arg0, b_keep_arg0, a_keep_arg0]
theorem kept_arg1 (W : Valuation τ sig (Elt F)) :
    after Cert.ReferenceIdeal.ValueP.ops W (Proc.devRef .tc main_arg1) = W (Proc.devRef .tc main_arg1) := by
  rw [ops_split, after_append, after_append, after_append, d_keep_arg1, c_keep_arg1, b_keep_arg1, a_keep_arg1]
theorem kept_arg2 (W : Valuation τ sig (Elt F)) :
    after Cert.ReferenceIdeal.ValueP.ops W (Proc.devRef .tc main_arg2) = W (Proc.devRef .tc main_arg2) := by
  rw [ops_split, after_append, after_append, after_append, d_keep_arg2, c_keep_arg2, b_keep_arg2, a_keep_arg2]
theorem kept_arg3 (W : Valuation τ sig (Elt F)) :
    after Cert.ReferenceIdeal.ValueP.ops W (Proc.devRef .tc main_arg3) = W (Proc.devRef .tc main_arg3) := by
  rw [ops_split, after_append, after_append, after_append, d_keep_arg3, c_keep_arg3, b_keep_arg3, a_keep_arg3]
theorem kept_arg4 (W : Valuation τ sig (Elt F)) :
    after Cert.ReferenceIdeal.ValueP.ops W (Proc.devRef .tc main_arg4) = W (Proc.devRef .tc main_arg4) := by
  rw [ops_split, after_append, after_append, after_append, d_keep_arg4, c_keep_arg4, b_keep_arg4, a_keep_arg4]
theorem kept_arg5 (W : Valuation τ sig (Elt F)) :
    after Cert.ReferenceIdeal.ValueP.ops W (Proc.devRef .tc main_arg5) = W (Proc.devRef .tc main_arg5) := by
  rw [ops_split, after_append, after_append, after_append, d_keep_arg5, c_keep_arg5, b_keep_arg5, a_keep_arg5]
theorem kept_arg6 (W : Valuation τ sig (Elt F)) :
    after Cert.ReferenceIdeal.ValueP.ops W (Proc.devRef .tc main_arg6) = W (Proc.devRef .tc main_arg6) := by
  rw [ops_split, after_append, after_append, after_append, d_keep_arg6, c_keep_arg6, b_keep_arg6, a_keep_arg6]
theorem kept_arg7 (W : Valuation τ sig (Elt F)) :
    after Cert.ReferenceIdeal.ValueP.ops W (Proc.devRef .tc main_arg7) = W (Proc.devRef .tc main_arg7) := by
  rw [ops_split, after_append, after_append, after_append, d_keep_arg7, c_keep_arg7, b_keep_arg7, a_keep_arg7]

/-- On every device, from any memory with zero counters: every weakly fair execution of the reference's @main
    terminates with its result at the network of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v99).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c))⟩)
    (Cert.ReferenceIdeal.ValueP.run_after m ρ)

end Cert.ReferenceIdeal.RefValue

end
-- ==== Proof.lean ====
/-
  The kernel and its reference compute the same two-layer graph convolution.

  Both programs are, on the host, the SAME sequence of gathers, scatter-adds and broadcasts around three dense
  products (Proof/Chain.lean names that shared part once: the edge endpoints with self-loops, the degree
  normalisation, one aggregation per layer). They differ in how the products are carried out: the kernel runs each
  as a grid of twenty tiles of 5000 node rows, rounds the operands to bf16 on the way into the product (the identity
  on extended reals), clamps at zero INSIDE the tile of the next product where the reference clamps in a separate host
  operation, computes the edge weights once where the reference computes them once per layer, and hands the last
  bias over as a reshaped 1 × 1 array where the reference broadcasts it.

  At the ideal instance a tile's entry (r, q) is the sum over the 128 shared positions of the clamped row entry times
  the weight entry — the very sum the product over all 100000 rows has at row 5000·t + r — and the twenty tiles are
  disjoint and fill the array (Proof/Region0.lean, Region1.lean, Region2.lean). No algebra beyond that is used: sums are
  over the same index set with the same terms, so nothing depends on the inputs being finite.

  The kernel's run names its result buffer at the last boundary's contents (Proof/KernelRun.lean), which read back
  through the three regions and the host stretches between them is the network of the arguments
  (Proof/KernelValue.lean); the reference's run is read stretch by stretch to the same network (Proof/RefValue.lean).
  The ideal pass rewrote nothing, so `preserves` is trivial; the two kernel frames are the generated ones and the
  reference's frame is its run with the result dropped.
-/
import proofs.«115015_j18940805775462_1_alg».proof.Defs
import proofs.«115015_j18940805775462_1_alg».proof.Proof.Gen.Kernel
import proofs.«115015_j18940805775462_1_alg».proof.Proof.Gen.Kernel.Frame
import proofs.«115015_j18940805775462_1_alg».proof.Proof.Gen.KernelIdeal
import proofs.«115015_j18940805775462_1_alg».proof.Proof.Gen.KernelIdeal.Frame
import proofs.«115015_j18940805775462_1_alg».proof.Proof.Gen.ReferenceIdeal
import proofs.«115015_j18940805775462_1_alg».proof.Proof.Gen.Pre_finite_inputs
import proofs.«115015_j18940805775462_1_alg».proof.Proof.KernelRun
import proofs.«115015_j18940805775462_1_alg».proof.Proof.KernelValue
import proofs.«115015_j18940805775462_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- From memories agreeing on the arguments both programs end with the network of the arguments in their result. -/
theorem algebraic : Cert.algebraic_KernelIdeal_ReferenceIdeal := by
  intro m ρ m' ρ' _ hagree
  refine ⟨fun c => Cert.GraphConv.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RefValue.run (F := Ideal) m' ρ')
    obtain ⟨a0, a1, a2, a3, a4, a5, a6, a7⟩ := hagree c
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
